-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S11008x4096 : Shape := ⟨2, ![11008, 4096]⟩
abbrev S32x11008x2 : Shape := ⟨3, ![32, 11008, 2]⟩
abbrev S11008 : Shape := ⟨1, ![11008]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S32x11008x2 : S_.BroadcastsInDim S32x11008x2 (![] : Fin 0 → Fin S32x11008x2.rank)
  reducesTo_S32x11008x2_S_d0_1_2 : S32x11008x2.ReducesTo [0, 1, 2] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S8192x4096 .f32) (main_arg1 : IVec S11008x4096 32) (main_arg2 : FVec F S32x11008x2 .f32) (main_arg3 : FVec F S11008 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S32x11008x2 .f32 := Host.absf main_arg2
  let main_cst_0 : FVec F S_ .f32 := constant S_ .f32 0x7F800000#32
  let main_v5 : FVec F S32x11008x2 .f32 := broadcastInDim S32x11008x2 ![] bcast_S_S32x11008x2 main_cst_0
  let main_v6 : IVec S32x11008x2 1 := cmpf .olt main_v4 main_v5
  let main_c_1 : IVec S_ 1 := constantI S_ 1 1#1
  let main_v7 : IVec S_ 1 := (fun x v => Host.reduce IntOp.andi x v reducesTo_S32x11008x2_S_d0_1_2 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S8192x4096 : Shape := ⟨2, ![8192, 4096]⟩
abbrev S11008x4096 : Shape := ⟨2, ![11008, 4096]⟩
abbrev S32x11008x2 : Shape := ⟨3, ![32, 11008, 2]⟩
abbrev S11008 : Shape := ⟨1, ![11008]⟩
abbrev S1x11008 : Shape := ⟨2, ![1, 11008]⟩
abbrev S8192x11008 : Shape := ⟨2, ![8192, 11008]⟩
abbrev S1024x512 : Shape := ⟨2, ![1024, 512]⟩
abbrev S256x512 : Shape := ⟨2, ![256, 512]⟩
abbrev S4x256x2 : Shape := ⟨3, ![4, 256, 2]⟩
abbrev S1x256 : Shape := ⟨2, ![1, 256]⟩
abbrev S1024x256 : Shape := ⟨2, ![1024, 256]⟩
abbrev S1x256x2 : Shape := ⟨3, ![1, 256, 2]⟩
abbrev S256x2 : Shape := ⟨2, ![256, 2]⟩
abbrev S256x1 : Shape := ⟨2, ![256, 1]⟩
abbrev S256 : Shape := ⟨1, ![256]⟩
abbrev S256x128 : Shape := ⟨2, ![256, 128]⟩

abbrev nBuf : Space → Nat
  | .hbm => 7
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S11008x4096, .i32⟩
  | .hbm, ⟨2, _⟩ => ⟨S32x11008x2, .f32⟩
  | .hbm, ⟨3, _⟩ => ⟨S11008, .f32⟩
  | .hbm, ⟨4, _⟩ => ⟨S8192x4096, .bf16⟩
  | .hbm, ⟨5, _⟩ => ⟨S1x11008, .f32⟩
  | .hbm, ⟨6, _⟩ => ⟨S8192x11008, .f32⟩
  | .local _ .vmem, ⟨0, _⟩ => ⟨S1024x512, .bf16⟩
  | .local _ .vmem, ⟨1, _⟩ => ⟨S1024x512, .bf16⟩
  | .local _ .vmem, ⟨2, _⟩ => ⟨S256x512, .i32⟩
  | .local _ .vmem, ⟨3, _⟩ => ⟨S256x512, .i32⟩
  | .local _ .vmem, ⟨4, _⟩ => ⟨S4x256x2, .f32⟩
  | .local _ .vmem, ⟨5, _⟩ => ⟨S4x256x2, .f32⟩
  | .local _ .vmem, ⟨6, _⟩ => ⟨S1x256, .f32⟩
  | .local _ .vmem, ⟨7, _⟩ => ⟨S1x256, .f32⟩
  | .local _ .vmem, ⟨8, _⟩ => ⟨S1024x256, .f32⟩
  | .local _ .vmem, ⟨9, _⟩ => ⟨S1024x256, .f32⟩
  | .local _ .vmem, ⟨10, _⟩ => ⟨S1024x256, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 43, 8], ![false, false, false]⟩

def k0_cond2 (i : grid0.Coords) : BitVec 1 :=
  let arg2 : BitVec 32 := BitVec.ofNat 32 (i 2).val
  let c7_i32 : BitVec 32 := 7#32
  let v77 : BitVec 1 := Scalar.cmpi .eq arg2 c7_i32
  let v78 : BitVec 32 := Scalar.extui v77
  let c0_i32_24 : BitVec 32 := 0#32
  let v79 : BitVec 1 := Scalar.cmpi .ne v78 c0_i32_24
  v79

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x256x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bitsLt_bf16_f32 : FTy.bits .bf16 < FTy.bits .f32
  shapeCasts_S11008_S1x11008 : S11008.ShapeCasts S1x11008
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S4x256x2_S1x256x2_0_0_0 : ∀ a, (![0, 0, 0] : Fin 3 → Nat) a + S1x256x2.size a ≤ S4x256x2.size a
  h_S1x256x2 : 0 < S1x256x2.numel
  shapeCasts_S1x256x2_S256x2 : S1x256x2.ShapeCasts S256x2
  slices_S256x2_o0_0_S256x1 : S256x2.Slices ![0, 0] S256x1
  shapeCasts_S256x1_S256 : S256x1.ShapeCasts S256
  slices_S256x2_o0_1_S256x1 : S256x2.Slices ![0, 1] S256x1
  inb_S256x512_S256x128_0_0 : ∀ a, (![0, 0] : Fin 2 → Nat) a + S256x128.size a ≤ S256x512.size a
  h_S256x128 : 0 < S256x128.numel
  shapeCasts_S256_S256x1 : S256.ShapeCasts S256x1
  broadcasts_S256x1_S256x128 : S256x1.Broadcasts S256x128
  inb_S4x256x2_S1x256x2_1_0_0 : ∀ a, (![1, 0, 0] : Fin 3 → Nat) a + S1x256x2.size a ≤ S4x256x2.size a
  inb_S256x512_S256x128_0_128 : ∀ a, (![0, 128] : Fin 2 → Nat) a + S256x128.size a ≤ S256x512.size a
  inb_S4x256x2_S1x256x2_2_0_0 : ∀ a, (![2, 0, 0] : Fin 3 → Nat) a + S1x256x2.size a ≤ S4x256x2.size a
  inb_S256x512_S256x128_0_256 : ∀ a, (![0, 256] : Fin 2 → Nat) a + S256x128.size a ≤ S256x512.size a
  inb_S4x256x2_S1x256x2_3_0_0 : ∀ a, (![3, 0, 0] : Fin 3 → Nat) a + S1x256x2.size a ≤ S4x256x2.size a
  inb_S256x512_S256x128_0_384 : ∀ a, (![0, 384] : Fin 2 → Nat) a + S256x128.size a ≤ S256x512.size a
  concatenates_S256x128_S256x128_S256x128_S256x128_S256x512_d1 : Shape.Concatenates [S256x128, S256x128, S256x128, S256x128] S256x512 1
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x512_S256x512_S1024x256_1_1_0_0_n_n_wf : DotDims.WF S1024x512 S256x512 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x4096.size a
  hwx0_0 : ∀ i : grid0.Coords, EltTy.bits .bf16 = 32 ∨ (Rect.block (s := S8192x4096) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S11008x4096.size a
  hwx0_1 : ∀ i : grid0.Coords, EltTy.bits .i32 = 32 ∨ (Rect.block (s := S11008x4096) S256x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256x2.size a ≤ S32x11008x2.size a
  hwx0_2 : ∀ i : grid0.Coords, EltTy.bits .f32 = 32 ∨ (Rect.block (s := S32x11008x2) S4x256x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x11008.size a
  hwx0_3 : ∀ i : grid0.Coords, EltTy.bits .f32 = 32 ∨ (Rect.block (s := S1x11008) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x256.size a ≤ S8192x11008.size a
  hwx0_4 : ∀ i : grid0.Coords, EltTy.bits .f32 = 32 ∨ (Rect.block (s := S8192x11008) S1024x256.size (cc0_transform_4 i) (hinb0_4 i)).WholeWords (EltTy.packing .f32)

variable [Facts₀]

def dot_S1024x512_S256x512_S1024x256_1_1_0_0_n_n : DotDims S1024x512 S256x512 S1024x256 where
  lhsContracting := [1]
  rhsContracting := [1]
  lhsNonContracting := [0]
  rhsNonContracting := [0]
  lhsBatch := []
  rhsBatch := []
  wf := dot_S1024x512_S256x512_S1024x256_1_1_0_0_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S4x256x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S11008x4096 : Shape := ⟨2, ![11008, 4096]⟩
abbrev S32x11008x2 : Shape := ⟨3, ![32, 11008, 2]⟩
abbrev S11008 : Shape := ⟨1, ![11008]⟩
abbrev S32x11008x1 : Shape := ⟨3, ![32, 11008, 1]⟩
abbrev S32x11008 : Shape := ⟨2, ![32, 11008]⟩
abbrev S11008x32 : Shape := ⟨2, ![11008, 32]⟩
abbrev S11008x32x128 : Shape := ⟨3, ![11008, 32, 128]⟩
abbrev S_ : Shape := ⟨0, ![]⟩
abbrev S11008x32x1 : Shape := ⟨3, ![11008, 32, 1]⟩
abbrev S4096x11008 : Shape := ⟨2, ![4096, 11008]⟩
abbrev S8192x11008 : Shape := ⟨2, ![8192, 11008]⟩
abbrev S1x11008 : Shape := ⟨2, ![1, 11008]⟩

abbrev nBuf : Space → Nat
  | .hbm => 27
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S11008x4096, .i32⟩
  | .hbm, ⟨2, _⟩ => ⟨S32x11008x2, .f32⟩
  | .hbm, ⟨3, _⟩ => ⟨S11008, .f32⟩
  | .hbm, ⟨4, _⟩ => ⟨S32x11008x1, .f32⟩
  | .hbm, ⟨5, _⟩ => ⟨S32x11008, .f32⟩
  | .hbm, ⟨6, _⟩ => ⟨S11008x32, .f32⟩
  | .hbm, ⟨7, _⟩ => ⟨S32x11008x1, .f32⟩
  | .hbm, ⟨8, _⟩ => ⟨S32x11008, .f32⟩
  | .hbm, ⟨9, _⟩ => ⟨S11008x32, .f32⟩
  | .hbm, ⟨10, _⟩ => ⟨S11008x32x128, .i32⟩
  | .hbm, ⟨11, _⟩ => ⟨S11008x32x128, .f32⟩
  | .hbm, ⟨12, _⟩ => ⟨S_, .f32⟩
  | .hbm, ⟨13, _⟩ => ⟨S11008x32x128, .f32⟩
  | .hbm, ⟨14, _⟩ => ⟨S11008x32x128, .f32⟩
  | .hbm, ⟨15, _⟩ => ⟨S11008x32x1, .f32⟩
  | .hbm, ⟨16, _⟩ => ⟨S11008x32x128, .f32⟩
  | .hbm, ⟨17, _⟩ => ⟨S11008x32x128, .f32⟩
  | .hbm, ⟨18, _⟩ => ⟨S11008x32x1, .f32⟩
  | .hbm, ⟨19, _⟩ => ⟨S11008x32x128, .f32⟩
  | .hbm, ⟨20, _⟩ => ⟨S11008x32x128, .f32⟩
  | .hbm, ⟨21, _⟩ => ⟨S11008x4096, .f32⟩
  | .hbm, ⟨22, _⟩ => ⟨S4096x11008, .f32⟩
  | .hbm, ⟨23, _⟩ => ⟨S8192x11008, .f32⟩
  | .hbm, ⟨24, _⟩ => ⟨S1x11008, .f32⟩
  | .hbm, ⟨25, _⟩ => ⟨S8192x11008, .f32⟩
  | .hbm, ⟨26, _⟩ => ⟨S8192x11008, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩

abbrev nD : Nat := 1
abbrev τ : Topo := Topo.v7x

variable {F : FTy → Type} [FloatOps F]

class Facts₀ : Prop where
  slices_S32x11008x2_S32x11008x1_0_0_0 : S32x11008x2.Slices ![0, 0, 0] S32x11008x1
  shapeCasts_S32x11008x1_S32x11008 : S32x11008x1.ShapeCasts S32x11008
  transposes_S32x11008_S11008x32_1_0 : S32x11008.Transposes [1, 0] S11008x32
  slices_S32x11008x2_S32x11008x1_0_0_1 : S32x11008x2.Slices ![0, 0, 1] S32x11008x1
  shapeCasts_S11008x4096_S11008x32x128 : S11008x4096.ShapeCasts S11008x32x128
  bcast_S_S11008x32x128 : S_.BroadcastsInDim S11008x32x128 (![] : Fin 0 → Fin S11008x32x128.rank)
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  transposes_S11008x4096_S4096x11008_1_0 : S11008x4096.Transposes [1, 0] S4096x11008
  bcast_S11008_S1x11008_1 : S11008.BroadcastsInDim S1x11008 (![1] : Fin 1 → Fin S1x11008.rank)
  bcast_S1x11008_S8192x11008_0_1 : S1x11008.BroadcastsInDim S8192x11008 (![0, 1] : Fin 2 → Fin S8192x11008.rank)
  dot_S8192x4096_S4096x11008_S8192x11008_1_0_0_1_n_n_wf : DotDims.WF S8192x4096 S4096x11008 S8192x11008 [1] [0] [0] [1] [] []

variable [Facts₀]

def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf

class Facts : Prop extends Facts₀ where

variable [Facts]
-- ==== Proof.Spec.lean ====
/-
  The function both programs compute, stated once over the argument arrays, and the two facts about sums that
  join the kernel's tiling to it.

  An activation row r of X (8192 rows of 4096 features) meets output channel n of a weight matrix that is stored
  quantized: an integer code Q(n, k) per (channel, feature), and per (group of 128 consecutive features, channel) a
  pair SZ(g, n, ·) = (scale, zero). The weight is  w(n, k) = (Q(n, k) − 8) · scale(k / 128, n) + zero(k / 128, n),
  and the result is  Y(r, n) = Σ_k X(r, k) · w(n, k) + B(n).

  The kernel forms the same sum in eight consecutive runs of 512 features: Σ_{s < 8} Σ_{j < 512} F(512·s + j). In the
  extended reals addition is commutative and associative without any finiteness assumption, so regrouping the 4096
  terms is an identity of finite sums (`sum_tiles`).
-/
import Idealize.ShloMosaic.Lib.ValueIdx
import Idealize.ShloMosaic.PureOps.Ideal.Laws

noncomputable section

open scoped BigOperators

namespace Cert.QLinear

open Idealize.ShloMosaic Idealize.ShloMosaic.ValueIdx

/-- One dequantized weight: the integer code read as a real number, recentred by eight, scaled and shifted by its
    group's (scale, zero) pair. -/
def deq (q : BitVec 32) (s z : EReal) : EReal :=
  (FloatOps.sitofp (F := Ideal) .f32 q - Ideal.ofBits .f32 0x41000000#32) * s + z

/-- The group of 128 consecutive input features that feature `k` lies in. -/
def grp (k : Fin 4096) : Fin 32 := ⟨k.val / 128, by have := k.isLt; omega⟩

/-- The weight of output channel `n` at input feature `k`. -/
def weight (Q : (⟨2, ![11008, 4096]⟩ : Shape).Idx → BitVec 32) (SZ : (⟨3, ![32, 11008, 2]⟩ : Shape).Idx → EReal)
    (n : Fin 11008) (k : Fin 4096) : EReal :=
  deq (Q (ix2 n k)) (SZ (ix3 (grp k) n (0 : Fin 2))) (SZ (ix3 (grp k) n (1 : Fin 2)))

/-- The result array: row `r` of the activations against channel `n`'s weights, plus the channel's bias. -/
def result (X : (⟨2, ![8192, 4096]⟩ : Shape).Idx → EReal) (Q : (⟨2, ![11008, 4096]⟩ : Shape).Idx → BitVec 32)
    (SZ : (⟨3, ![32, 11008, 2]⟩ : Shape).Idx → EReal) (B : (⟨1, ![11008]⟩ : Shape).Idx → EReal) :
    (⟨2, ![8192, 11008]⟩ : Shape).Idx → EReal := fun i =>
  (∑ k : Fin 4096, X (ix2 (i 0) k) * weight Q SZ (i 1) k) + B (ix1 (i 1))

/-- Eight consecutive runs of 512 terms are the 4096 terms: the pair (s, j) ↦ 512·s + j is a bijection from
    {0..7} × {0..511} onto {0..4095}, and a finite sum in a commutative monoid does not depend on the order. -/
theorem sum_tiles {M : Type*} [AddCommMonoid M] (F : ℕ → M) :
    ∑ s ∈ Finset.range 8, ∑ j : Fin 512, F (512 * s + j.val) = ∑ k : Fin 4096, F k.val := by
  rw [← Fin.sum_univ_eq_sum_range (fun s => ∑ j : Fin 512, F (512 * s + j.val)) 8]
  rw [← Fintype.sum_prod_type' (fun (s : Fin 8) (j : Fin 512) => F (512 * s.val + j.val))]
  rw [← Equiv.sum_comp (finProdFinEquiv (m := 8) (n := 512)) (fun k : Fin 4096 => F k.val)]
  refine Finset.sum_congr rfl fun p _ => ?_
  rw [finProdFinEquiv_apply_val, Nat.add_comm]

/-- A [256, 512] block of codes against a [4, 256, 2] block of (scale, zero) pairs: the weight of the block's channel
    `cc` at the block's feature `j`, whose group inside the block is `j / 128`. -/
def tileW (q : (⟨2, ![256, 512]⟩ : Shape).Idx → BitVec 32) (sz : (⟨3, ![4, 256, 2]⟩ : Shape).Idx → EReal)
    (cc : Fin 256) (j : Fin 512) : EReal :=
  deq (q (ix2 cc j)) (sz (ix3 (⟨j.val / 128, by have := j.isLt; omega⟩ : Fin 4) cc (0 : Fin 2)))
    (sz (ix3 (⟨j.val / 128, by have := j.isLt; omega⟩ : Fin 4) cc (1 : Fin 2)))

/-- A [1024, 512] block of activations against the block's weights: entry (r, cc) is row r against channel cc over
    the block's 512 features. -/
def tileDot (x : (⟨2, ![1024, 512]⟩ : Shape).Idx → EReal)
    (q : (⟨2, ![256, 512]⟩ : Shape).Idx → BitVec 32) (sz : (⟨3, ![4, 256, 2]⟩ : Shape).Idx → EReal) :
    (⟨2, ![1024, 256]⟩ : Shape).Idx → EReal := fun i =>
  ∑ j : Fin 512, x (ix2 (i 0) j) * tileW q sz (i 1) j

/-- One step of the accumulation: what a [1024, 256] accumulator holds after a [1024, 512] block of activations has met
    the block's weights. -/
def tileAcc (acc : (⟨2, ![1024, 256]⟩ : Shape).Idx → EReal) (x : (⟨2, ![1024, 512]⟩ : Shape).Idx → EReal)
    (q : (⟨2, ![256, 512]⟩ : Shape).Idx → BitVec 32) (sz : (⟨3, ![4, 256, 2]⟩ : Shape).Idx → EReal) :
    (⟨2, ![1024, 256]⟩ : Shape).Idx → EReal := fun i =>
  acc i + tileDot x q sz i

end Cert.QLinear

end
-- ==== Proof.RefRead.lean ====
/-
  The reference program's result is `Cert.QLinear.result` of its arguments, index by index.

  The reference slices the (scale, zero) pairs apart, transposes each to [channel, group], reshapes the codes to
  [channel, group, lane], dequantizes, reshapes back to [channel, feature], transposes and contracts with the
  activations. Read at output (r, n) and contraction index k, every layout step is a re-indexing: the code read is
  Q(n, k), the pair read is SZ(k / 128, n, ·) — because feature k = 128·(k / 128) + k % 128 sits in group k / 128 at
  lane k % 128 — and the bias read is B(n).
-/
import proofs.«124561_j83064667504675_1_alg».proof.Proof.Gen.ReferenceIdeal.Run
import proofs.«124561_j83064667504675_1_alg».proof.Proof.Gen.ReferenceIdeal.Read
import proofs.«124561_j83064667504675_1_alg».proof.Proof.Spec

noncomputable section

open scoped BigOperators

namespace Cert.ReferenceIdeal.RefValue

open Cert.ReferenceIdeal Cert.ReferenceIdeal.Read Idealize.ShloMosaic Idealize.ShloMosaic.ValueIdx

/-- The code the dequantized, reshaped and transposed weight reads at (k, n) is `Q(n, k)`. -/
theorem code_idx (i : S8192x11008.Idx) (k : Fin 4096) :
    idx_main_v6 (idx_main_v16 (idx_main_v17 (ridx_main_v18 i k))) = ix2 (i 1) k := by
  have hk := k.isLt
  have hn : (i 1).val < 11008 := (i 1).isLt
  funext a
  apply Fin.ext
  match a with
  | ⟨0, _⟩ => dsimp only [idx_main_v6, idx_main_v16, idx_main_v17, ridx_main_v18, ix2]; omega
  | ⟨1, _⟩ => dsimp only [idx_main_v6, idx_main_v16, idx_main_v17, ridx_main_v18, ix2]; omega

/-- The scale it reads is the pair's entry 0 for group `k / 128` and channel `n`. -/
theorem scale_idx (i : S8192x11008.Idx) (k : Fin 4096) :
    idx_main_v0 (idx_main_v1 (idx_main_v2 (idx_main_v10 (idx_main_v11 (idx_main_v16 (idx_main_v17 (ridx_main_v18 i k)))))))
      = ix3 (Cert.QLinear.grp k) (i 1) (0 : Fin 2) := by
  have hk := k.isLt
  have hn : (i 1).val < 11008 := (i 1).isLt
  funext a
  apply Fin.ext
  match a with
  | ⟨0, _⟩ => dsimp only [idx_main_v0, idx_main_v1, idx_main_v2, idx_main_v10, idx_main_v11, idx_main_v16, idx_main_v17, ridx_main_v18, ix3, Cert.QLinear.grp]; omega
  | ⟨1, _⟩ => dsimp only [idx_main_v0, idx_main_v1, idx_main_v2, idx_main_v10, idx_main_v11, idx_main_v16, idx_main_v17, ridx_main_v18, ix3, Cert.QLinear.grp]; omega
  | ⟨2, _⟩ => rfl

/-- The zero it reads is the pair's entry 1 for the same group and channel. -/
theorem zero_idx (i : S8192x11008.Idx) (k : Fin 4096) :
    idx_main_v3 (idx_main_v4 (idx_main_v5 (idx_main_v13 (idx_main_v14 (idx_main_v16 (idx_main_v17 (ridx_main_v18 i k)))))))
      = ix3 (Cert.QLinear.grp k) (i 1) (1 : Fin 2) := by
  have hk := k.isLt
  have hn : (i 1).val < 11008 := (i 1).isLt
  funext a
  apply Fin.ext
  match a with
  | ⟨0, _⟩ => dsimp only [idx_main_v3, idx_main_v4, idx_main_v5, idx_main_v13, idx_main_v14, idx_main_v16, idx_main_v17, ridx_main_v18, ix3, Cert.QLinear.grp]; omega
  | ⟨1, _⟩ => dsimp only [idx_main_v3, idx_main_v4, idx_main_v5, idx_main_v13, idx_main_v14, idx_main_v16, idx_main_v17, ridx_main_v18, ix3, Cert.QLinear.grp]; omega
  | ⟨2, _⟩ => rfl

/-- The right operand of the reference's contraction, at (k, n), is the weight of channel `n` at feature `k`. -/
theorem weight_eq (x1 : (⟨S11008x4096, .i32⟩ : BufTy).Contents (Elt Ideal)) (x2 : (⟨S32x11008x2, .f32⟩ : BufTy).Contents (Elt Ideal))
    (i : S8192x11008.Idx) (k : Fin 4096) :
    val_main_v17 (F := Ideal) x1 x2 (ridx_main_v18 i k) = Cert.QLinear.weight x1 x2 (i 1) k := by
  rw [val_main_v17_apply, val_main_v16_apply, val_main_v15_apply, val_main_v12_apply, val_main_v9_apply,
    val_main_v7_apply, val_main_v6_apply, val_main_v8_apply, val_main_cst_apply, val_main_v11_apply,
    val_main_v10_apply, val_main_v2_apply, val_main_v1_apply, val_main_v0_apply, val_main_v14_apply,
    val_main_v13_apply, val_main_v5_apply, val_main_v4_apply, val_main_v3_apply, code_idx, scale_idx, zero_idx]
  rfl

/-- The reference's result array is `result` of the argument arrays. -/
theorem ref_eq (x0 : (⟨S8192x4096, .f32⟩ : BufTy).Contents (Elt Ideal)) (x1 : (⟨S11008x4096, .i32⟩ : BufTy).Contents (Elt Ideal))
    (x2 : (⟨S32x11008x2, .f32⟩ : BufTy).Contents (Elt Ideal)) (x3 : (⟨S11008, .f32⟩ : BufTy).Contents (Elt Ideal)) :
    val_main_v21 (F := Ideal) x0 x1 x2 x3 = Cert.QLinear.result x0 x1 x2 x3 := by
  funext i
  rw [val_main_v21_apply, val_main_v18_apply, val_main_v20_apply, val_main_v19_apply]
  unfold Cert.QLinear.result
  show (∑ k : Fin 4096, x0 (lidx_main_v18 i k) * val_main_v17 (F := Ideal) x1 x2 (ridx_main_v18 i k))
      + x3 (idx_main_v19 (idx_main_v20 i)) = _
  have eb : idx_main_v19 (idx_main_v20 i) = ix1 (i 1) := funext fun a => match a with | ⟨0, _⟩ => rfl
  rw [eb]
  refine congrArg (· + x3 (ix1 (i 1))) (Finset.sum_congr rfl fun k _ => ?_)
  rw [weight_eq]
  have el : lidx_main_v18 i k = ix2 (i 0) k := funext fun a => match a with | ⟨0, _⟩ => rfl | ⟨1, _⟩ => rfl
  rw [el] <;> rfl

end Cert.ReferenceIdeal.RefValue

end
-- ==== Proof.Pieces.lean ====
/-
  What one run of the kernel's body leaves behind, as values.

  The body keeps a [1024, 256] accumulator in a scratch buffer across the eight grid points of a run. At every point it
  dequantizes the point's [256, 512] block of codes group by group, multiplies the point's [1024, 512] block of
  activations by the transposed result on the matrix unit, and adds the product to the accumulator (`step`). At the first
  point of a run the accumulator is first overwritten with zeros, so the step is taken from the zero block; at the last
  point the accumulator plus the bias row is stored to the output block.

  Each lemma reads back the stores that the body's symbolic run recorded: a store through the whole buffer leaves its
  payload, and a load through the whole buffer reads what the buffer holds.
-/
import proofs.«124561_j83064667504675_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl

/-- One step of the accumulation: the accumulator `acc` plus the product of the activation block `x0` with the
    dequantized weight tile built from the code block `x1` and the four groups' (scale, zero) pairs in `x2`. -/
def step (x0 : Vec F S1024x512 .bf16) (x1 : Vec F S256x512 .i32) (x2 : Vec F S4x256x2 .f32) (acc : Vec F S1024x256 .f32) :
    Vec F S1024x256 .f32 :=
  k0_pay7
    (k0_pay3 (View.ld x2 (Rect.unit (s := S4x256x2) ![0, 0, 0] S1x256x2.size inb_S4x256x2_S1x256x2_0_0_0))
      (View.ld x1 (Rect.unit (s := S256x512) ![0, 0] S256x128.size inb_S256x512_S256x128_0_0)))
    (k0_pay4 (View.ld x2 (Rect.unit (s := S4x256x2) ![1, 0, 0] S1x256x2.size inb_S4x256x2_S1x256x2_1_0_0))
      (View.ld x1 (Rect.unit (s := S256x512) ![0, 128] S256x128.size inb_S256x512_S256x128_0_128)))
    (k0_pay5 (View.ld x2 (Rect.unit (s := S4x256x2) ![2, 0, 0] S1x256x2.size inb_S4x256x2_S1x256x2_2_0_0)))
    (k0_pay6 (View.ld x2 (Rect.unit (s := S4x256x2) ![2, 0, 0] S1x256x2.size inb_S4x256x2_S1x256x2_2_0_0)))
    (View.ld x1 (Rect.unit (s := S256x512) ![0, 256] S256x128.size inb_S256x512_S256x128_0_256))
    (View.ld x2 (Rect.unit (s := S4x256x2) ![3, 0, 0] S1x256x2.size inb_S4x256x2_S1x256x2_3_0_0))
    (View.ld x1 (Rect.unit (s := S256x512) ![0, 384] S256x128.size inb_S256x512_S256x128_0_384)) acc x0

/-- A middle point of a run (neither its first nor its last): the scratch, holding `xs0`, is left at the step from `xs0`. -/
theorem scratch_mid (c : Dev nD) (i : grid0.Coords) (arg3 : Memref sig .tc .vmem S1024x512 .bf16) (harg3 : arg3.IsWhole) (arg4 : Memref sig .tc .vmem S256x512 .i32) (harg4 : arg4.IsWhole) (arg5 : Memref sig .tc .vmem S4x256x2 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : ¬cond0_1 i)
    (x0 : Vec F S1024x512 .bf16) (x1 : Vec F S256x512 .i32) (x2 : Vec F S4x256x2 .f32) (x3 : Vec F S1x256 .f32) (xs0 : Vec F S1024x256 .f32) :
    sout0_B_0 c i arg3 harg3 arg4 harg4 arg5 harg5 arg6 harg6 arg7 harg7 arg8 harg8 hc0 hc1 x0 x1 x2 x3 xs0 = step x0 x1 x2 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz2]
  simp only [View.readAt_eq_ld, harg3.read_unread, harg4.read_unread, harg5.read_unread, harg8.read_unread,
    View.ld_unit_zero (S := S1024x256) hz2, View.ld_unit_zero (S := S1024x512) hz2]
  rfl

/-- The last point of a run leaves the scratch at the step from what it held, like a middle point. -/
theorem scratch_last (c : Dev nD) (i : grid0.Coords) (arg3 : Memref sig .tc .vmem S1024x512 .bf16) (harg3 : arg3.IsWhole) (arg4 : Memref sig .tc .vmem S256x512 .i32) (harg4 : arg4.IsWhole) (arg5 : Memref sig .tc .vmem S4x256x2 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : cond0_1 i)
    (x0 : Vec F S1024x512 .bf16) (x1 : Vec F S256x512 .i32) (x2 : Vec F S4x256x2 .f32) (x3 : Vec F S1x256 .f32) (xs0 : Vec F S1024x256 .f32) :
    sout0_C_0 c i arg3 harg3 arg4 harg4 arg5 harg5 arg6 harg6 arg7 harg7 arg8 harg8 hc0 hc1 x0 x1 x2 x3 xs0 = step x0 x1 x2 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz2]
  simp only [View.readAt_eq_ld, harg3.read_unread, harg4.read_unread, harg5.read_unread, harg6.read_unread, harg8.read_unread,
    View.ld_unit_zero (S := S1024x256) hz2, View.ld_unit_zero (S := S1024x512) hz2, View.ld_unit_zero (S := S1x256) hz2]
  rfl

/-- The last point of a run stores to the output block the scratch it has just updated plus the bias row. -/
theorem out_last (c : Dev nD) (i : grid0.Coords) (arg3 : Memref sig .tc .vmem S1024x512 .bf16) (harg3 : arg3.IsWhole) (arg4 : Memref sig .tc .vmem S256x512 .i32) (harg4 : arg4.IsWhole) (arg5 : Memref sig .tc .vmem S4x256x2 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : ¬cond0_0 i) (hc1 : cond0_1 i)
    (x0 : Vec F S1024x512 .bf16) (x1 : Vec F S256x512 .i32) (x2 : Vec F S4x256x2 .f32) (x3 : Vec F S1x256 .f32) (xs0 : Vec F S1024x256 .f32) :
    out0_C_4 c i arg3 harg3 arg4 harg4 arg5 harg5 arg6 harg6 arg7 harg7 arg8 harg8 hc0 hc1 x0 x1 x2 x3 xs0 = k0_pay1 (step x0 x1 x2 xs0) x3 := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz2, View.readCov_unit_zero (S := S1024x256) _ hz2]
  simp only [View.readAt_eq_ld, harg3.read_unread, harg4.read_unread, harg5.read_unread, harg6.read_unread, harg8.read_unread,
    View.ld_unit_zero (S := S1024x256) hz2, View.ld_unit_zero (S := S1024x512) hz2, View.ld_unit_zero (S := S1x256) hz2]
  rfl

/-- The first point of a run overwrites the scratch with zeros and takes the step from there. -/
theorem scratch_first (c : Dev nD) (i : grid0.Coords) (arg3 : Memref sig .tc .vmem S1024x512 .bf16) (harg3 : arg3.IsWhole) (arg4 : Memref sig .tc .vmem S256x512 .i32) (harg4 : arg4.IsWhole) (arg5 : Memref sig .tc .vmem S4x256x2 .f32) (harg5 : arg5.IsWhole) (arg6 : Memref sig .tc .vmem S1x256 .f32) (harg6 : arg6.IsWhole) (arg7 : Memref sig .tc .vmem S1024x256 .f32) (harg7 : arg7.IsWhole) (arg8 : Memref sig .tc .vmem S1024x256 .f32) (harg8 : arg8.IsWhole) (hc0 : cond0_0 i) (hc1 : ¬cond0_1 i)
    (x0 : Vec F S1024x512 .bf16) (x1 : Vec F S256x512 .i32) (x2 : Vec F S4x256x2 .f32) (x3 : Vec F S1x256 .f32) :
    sout0_A_0 c i arg3 harg3 arg4 harg4 arg5 harg5 arg6 harg6 arg7 harg7 arg8 harg8 hc0 hc1 x0 x1 x2 x3 = step x0 x1 x2 (k0_pay2 (F := F)) := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S1024x256) hz2, View.readCov_unit_zero (S := S1024x256) _ hz2]
  simp only [View.readAt_eq_ld, harg3.read_unread, harg4.read_unread, harg5.read_unread, harg6.read_unread, harg8.read_unread,
    View.ld_unit_zero (S := S1024x256) hz2, View.ld_unit_zero (S := S1024x512) hz2, View.ld_unit_zero (S := S1x256) hz2]
  rfl

end Cert.KernelIdeal.Pieces

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.LibGroupDequant.lean ====
/-
  GENERAL LEMMAS: group-wise dequantization of a block of integer codes, as a vector program spells it, read at an
  index given by coordinates.
  • `shapeCast_a1_a_apply`: a column `[a, 1]` cast to `[a]` reads, at `i`, the column at `(i, 0)`;
  • `pairColumn_apply`: column `o` of a `[1, a, 2]` block of pairs — the block cast to `[a, 2]`, the column sliced out,
    cast to `[a]` and back to `[a, 1]`, and broadcast over `b` lanes — reads, at `(p, l)`, the pair's entry `(0, p, o)`;
  • `dequantGroup_apply`: `(float(q) − c) · scale + zero` over an `[a, b]` block of codes `q`, the scale and the zero
    the two columns of a `[1, a, 2]` block, at the extended reals: at `(p, l)` it is
    `(float(q(p, l)) − c) · pair(0, p, 0) + pair(0, p, 1)`;
  • `concat4_axis1_apply`: four `[a, b]` blocks laid side by side along the second axis read, at `(p, b·g + l)`, block
    `g` at `(p, l)`.
-/
import Idealize.ShloMosaic.Lib.ValueIdx
import Idealize.ShloMosaic.Lib.ValueLayout
import Idealize.ShloMosaic.Lib.Pipeline.Value
import Idealize.ShloMosaic.PureOps.Ideal.Laws
import proofs.«124561_j83064667504675_1_alg».proof.Proof.LibKeepdims

noncomputable section

namespace Idealize.ShloMosaic.ValueIdx

open Idealize.ShloMosaic

variable {α : Type}

/-- A column `[a, 1]` cast to `[a]` reads, at `i`, the column at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- Column `o` of a `[1, a, 2]` block of pairs, spread over `b` lanes: at `(p, l)` it is the block's entry `(0, p, o)`. -/
theorem pairColumn_apply {a b : ℕ} (o : ℕ) (ho : o < 2) (sz : (⟨3, ![1, a, 2]⟩ : Shape).Idx → α)
    (h1 : (⟨3, ![1, a, 2]⟩ : Shape).ShapeCasts ⟨2, ![a, 2]⟩)
    (h2 : (⟨2, ![a, 2]⟩ : Shape).Slices ![0, o] ⟨2, ![a, 1]⟩)
    (h3 : (⟨2, ![a, 1]⟩ : Shape).ShapeCasts ⟨1, ![a]⟩)
    (h4 : (⟨1, ![a]⟩ : Shape).ShapeCasts ⟨2, ![a, 1]⟩)
    (h5 : (⟨2, ![a, 1]⟩ : Shape).Broadcasts ⟨2, ![a, b]⟩) (p : Fin a) (l : Fin b) :
    broadcastTo ⟨2, ![a, b]⟩ (shapeCast ⟨2, ![a, 1]⟩ (shapeCast ⟨1, ![a]⟩
        (extractStridedSlice ⟨2, ![a, 1]⟩ ![0, o] (shapeCast ⟨2, ![a, 2]⟩ sz h1) h2) h3) h4) h5 (ix2 p l)
      = sz (ix3 (0 : Fin 1) p (⟨o, ho⟩ : Fin 2)) := by
  rw [broadcastTo_a1_ab_apply, shapeCast_a_a1_apply, shapeCast_a1_a_apply,
    slice2_axis1_apply o _ h2 p (0 : Fin 1) (⟨o, ho⟩ : Fin 2) (by simp), shapeCast_1ab_ab_apply]

/-- Group-wise dequantization at the extended reals, at `(p, l)`: the code there read as a number, less the constant,
    times the row's scale, plus the row's zero. -/
theorem dequantGroup_apply {a b : ℕ} (w : BitVec 32) (sz : FVec Ideal ⟨3, ![1, a, 2]⟩ .f32)
    (q : IVec ⟨2, ![a, b]⟩ 32)
    (h1 : (⟨3, ![1, a, 2]⟩ : Shape).ShapeCasts ⟨2, ![a, 2]⟩)
    (h2 : (⟨2, ![a, 2]⟩ : Shape).Slices ![0, 0] ⟨2, ![a, 1]⟩)
    (h2' : (⟨2, ![a, 2]⟩ : Shape).Slices ![0, 1] ⟨2, ![a, 1]⟩)
    (h3 : (⟨2, ![a, 1]⟩ : Shape).ShapeCasts ⟨1, ![a]⟩)
    (h4 : (⟨1, ![a]⟩ : Shape).ShapeCasts ⟨2, ![a, 1]⟩)
    (h5 : (⟨2, ![a, 1]⟩ : Shape).Broadcasts ⟨2, ![a, b]⟩) (p : Fin a) (l : Fin b) :
    addf (mulf (subf (sitofp (F := Ideal) .f32 q) (broadcast ⟨2, ![a, b]⟩ (Scalar.ofBits (F := Ideal) .f32 w)))
        (broadcastTo ⟨2, ![a, b]⟩ (shapeCast ⟨2, ![a, 1]⟩ (shapeCast ⟨1, ![a]⟩
          (extractStridedSlice ⟨2, ![a, 1]⟩ ![0, 0] (shapeCast ⟨2, ![a, 2]⟩ sz h1) h2) h3) h4) h5))
      (broadcastTo ⟨2, ![a, b]⟩ (shapeCast ⟨2, ![a, 1]⟩ (shapeCast ⟨1, ![a]⟩
          (extractStridedSlice ⟨2, ![a, 1]⟩ ![0, 1] (shapeCast ⟨2, ![a, 2]⟩ sz h1) h2') h3) h4) h5) (ix2 p l)
      = (FloatOps.sitofp (F := Ideal) .f32 (q (ix2 p l)) - Ideal.ofBits .f32 w) * sz (ix3 (0 : Fin 1) p (0 : Fin 2))
          + sz (ix3 (0 : Fin 1) p (1 : Fin 2)) := by
  rw [addf_apply, mulf_apply, subf_apply, sitofp_apply, broadcast_apply,
    pairColumn_apply 0 (by decide) sz h1 h2 h3 h4 h5 p l, pairColumn_apply 1 (by decide) sz h1 h2' h3 h4 h5 p l]
  rfl

/-- Four `[a, b]` blocks side by side along the second axis: at `(p, j)` with `j = b·k + l` it is block `k` (the list's
    entry `k`, named `x₁` by `hx`) at `(p, l)`. -/
theorem concat4_axis1_apply {a b n : ℕ} (v0 v1 v2 v3 : (⟨2, ![a, b]⟩ : Shape).Idx → α)
    (h : Shape.Concatenates (([⟨⟨2, ![a, b]⟩, v0⟩, ⟨⟨2, ![a, b]⟩, v1⟩, ⟨⟨2, ![a, b]⟩, v2⟩, ⟨⟨2, ![a, b]⟩, v3⟩] :
        List ((s : Shape) × (s.Idx → α))).map (·.1)) ⟨2, ![a, n]⟩ 1)
    (p : Fin a) (j : Fin n) (k : ℕ) (hk : k < 4) (x₁ : (⟨2, ![a, b]⟩ : Shape).Idx → α)
    (hx : ([⟨⟨2, ![a, b]⟩, v0⟩, ⟨⟨2, ![a, b]⟩, v1⟩, ⟨⟨2, ![a, b]⟩, v2⟩, ⟨⟨2, ![a, b]⟩, v3⟩] :
        List ((s : Shape) × (s.Idx → α)))[k]'(by simpa using hk) = ⟨⟨2, ![a, b]⟩, x₁⟩)
    (l : Fin b) (hj : j.val = b * k + l.val) :
    concatenate ⟨2, ![a, n]⟩ 1 [⟨⟨2, ![a, b]⟩, v0⟩, ⟨⟨2, ![a, b]⟩, v1⟩, ⟨⟨2, ![a, b]⟩, v2⟩, ⟨⟨2, ![a, b]⟩, v3⟩] h (ix2 p j)
      = x₁ (ix2 p l) := by
  refine concatenate_apply_piece 1 [⟨⟨2, ![a, b]⟩, v0⟩, ⟨⟨2, ![a, b]⟩, v1⟩, ⟨⟨2, ![a, b]⟩, v2⟩, ⟨⟨2, ![a, b]⟩, v3⟩] h (ix2 p j) k
    (by simpa using hk) ⟨2, ![a, b]⟩ x₁ hx rfl (b * k) ?_ (ix2 p l) ?_ ?_
  · interval_cases k <;> simp <;> ring
  · intro c hc
    match c with
    | ⟨0, _⟩ => rfl
    | ⟨1, _⟩ => exact absurd rfl hc
  · show b * k + l.val = j.val
    rw [hj]

end Idealize.ShloMosaic.ValueIdx

end
-- ==== Proof.TileStep.lean ====
/-
  One step of the accumulation, read at an entry, over the extended reals.

  The weight tile is four groups of 128 lanes laid side by side; lane j of the tile is lane j % 128 of group j / 128, and
  there the tile holds (code − 8) · scale + zero with the group's own (scale, zero) pair. The matrix unit, started from a
  zero accumulator, contracts the activation block's row r with the tile's row cc over the 512 lanes. So entry (r, cc) of
  the step is the old accumulator's entry plus Σ_j x(r, j) · w(cc, j): `Cert.QLinear.tileAcc`. A change of float format is
  the identity on the extended reals, so neither cast to the 16-bit format appears.
-/
import proofs.«124561_j83064667504675_1_alg».proof.Proof.Pieces
import proofs.«124561_j83064667504675_1_alg».proof.Proof.Spec
import proofs.«124561_j83064667504675_1_alg».proof.Proof.LibGroupDequant
import Idealize.ShloMosaic.Lib.ValueIdx
import Idealize.ShloMosaic.PureOps.Ideal.Laws

noncomputable section

open scoped BigOperators

namespace Cert.KernelIdeal.Tile

open Cert.KernelIdeal Cert.KernelIdeal.Gen Cert.KernelIdeal.Pieces Idealize.ShloMosaic Idealize.ShloMosaic.ValueIdx Cert.QLinear

variable {F : FTy → Type} [FloatOps F]

/-- One group's dequantized weights from the group's [1, 256, 2] block of pairs and its [256, 128] block of codes. -/
def grpTerm (v : Vec F S1x256x2 .f32) (q : Vec F S256x128 .i32) : FVec F S256x128 .f32 :=
  addf (mulf (subf (sitofp .f32 q) (broadcast S256x128 (Scalar.ofBits .f32 0x41000000#32)))
      (broadcastTo S256x128 (shapeCast S256x1 (shapeCast S256 (extractStridedSlice S256x1 ![0, 0]
        (shapeCast S256x2 v shapeCasts_S1x256x2_S256x2) slices_S256x2_o0_0_S256x1) shapeCasts_S256x1_S256)
        shapeCasts_S256_S256x1) broadcasts_S256x1_S256x128))
    (broadcastTo S256x128 (shapeCast S256x1 (shapeCast S256 (extractStridedSlice S256x1 ![0, 1]
        (shapeCast S256x2 v shapeCasts_S1x256x2_S256x2) slices_S256x2_o0_1_S256x1) shapeCasts_S256x1_S256)
        shapeCasts_S256_S256x1) broadcasts_S256x1_S256x128)

/-- The step with its two identity reshapes removed: the accumulator plus the matrix product of the activation block
    with the (format-changed) concatenation of the four groups. -/
def stepTerm (x0 : Vec F S1024x512 .bf16) (x1 : Vec F S256x512 .i32) (x2 : Vec F S4x256x2 .f32) (acc : Vec F S1024x256 .f32) :
    FVec F S1024x256 .f32 :=
  addf acc (matmul dot_S1024x512_S256x512_S1024x256_1_1_0_0_n_n none x0
    (truncf .bf16 (concatenate S256x512 1
      [⟨S256x128, grpTerm (View.ld x2 (Rect.unit (s := S4x256x2) ![0, 0, 0] S1x256x2.size inb_S4x256x2_S1x256x2_0_0_0))
          (View.ld x1 (Rect.unit (s := S256x512) ![0, 0] S256x128.size inb_S256x512_S256x128_0_0))⟩,
       ⟨S256x128, grpTerm (View.ld x2 (Rect.unit (s := S4x256x2) ![1, 0, 0] S1x256x2.size inb_S4x256x2_S1x256x2_1_0_0))
          (View.ld x1 (Rect.unit (s := S256x512) ![0, 128] S256x128.size inb_S256x512_S256x128_0_128))⟩,
       ⟨S256x128, grpTerm (View.ld x2 (Rect.unit (s := S4x256x2) ![2, 0, 0] S1x256x2.size inb_S4x256x2_S1x256x2_2_0_0))
          (View.ld x1 (Rect.unit (s := S256x512) ![0, 256] S256x128.size inb_S256x512_S256x128_0_256))⟩,
       ⟨S256x128, grpTerm (View.ld x2 (Rect.unit (s := S4x256x2) ![3, 0, 0] S1x256x2.size inb_S4x256x2_S1x256x2_3_0_0))
          (View.ld x1 (Rect.unit (s := S256x512) ![0, 384] S256x128.size inb_S256x512_S256x128_0_384))⟩]
      concatenates_S256x128_S256x128_S256x128_S256x128_S256x512_d1) bitsLt_bf16_f32)
    (constant S1024x256 .f32 0x00000000#32))

theorem step_eq_term (x0 : Vec F S1024x512 .bf16) (x1 : Vec F S256x512 .i32) (x2 : Vec F S4x256x2 .f32) (acc : Vec F S1024x256 .f32) :
    step x0 x1 x2 acc = stepTerm x0 x1 x2 acc := by
  unfold step stepTerm k0_pay7 k0_pay3 k0_pay4 k0_pay6 k0_pay5 grpTerm
  simp only [shapeCast_self]

/-! ### At the extended reals -/

/-- Lanes `o … o + 127` of the code block. -/
theorem ld_code (x1 : Vec Ideal S256x512 .i32) (o : ℕ) (inb : ∀ a, (![0, o] : Fin 2 → ℕ) a + S256x128.size a ≤ S256x512.size a)
    (p : Fin 256) (l : Fin 128) (j : Fin 512) (hj : j.val = o + l.val) :
    View.ld x1 (Rect.unit (s := S256x512) ![0, o] S256x128.size inb) (ix2 p l) = x1 (ix2 p j) := by
  show x1 ((Rect.unit (s := S256x512) ![0, o] S256x128.size inb).emb (ix2 p l)) = _
  refine congrArg x1 (funext fun a => Fin.ext ?_)
  match a with
  | ⟨0, _⟩ => show 0 + 1 * p.val = p.val; omega
  | ⟨1, _⟩ => show o + 1 * l.val = j.val; omega

/-- Group `g`'s slab of the block of pairs. -/
theorem ld_pair (x2 : Vec Ideal S4x256x2 .f32) (g : ℕ) (hg : g < 4) (inb : ∀ a, (![g, 0, 0] : Fin 3 → ℕ) a + S1x256x2.size a ≤ S4x256x2.size a)
    (p : Fin 256) (e : Fin 2) :
    View.ld x2 (Rect.unit (s := S4x256x2) ![g, 0, 0] S1x256x2.size inb) (ix3 (0 : Fin 1) p e) = x2 (ix3 (⟨g, hg⟩ : Fin 4) p e) := by
  show x2 ((Rect.unit (s := S4x256x2) ![g, 0, 0] S1x256x2.size inb).emb (ix3 (0 : Fin 1) p e)) = _
  refine congrArg x2 (funext fun a => Fin.ext ?_)
  match a with
  | ⟨0, _⟩ => show g + 1 * 0 = g; omega
  | ⟨1, _⟩ => show 0 + 1 * p.val = p.val; omega
  | ⟨2, _⟩ => show 0 + 1 * e.val = e.val; omega

/-- Group `g` of the tile, at channel `p` and the group's lane `l`, is the tile's weight at lane `128·g + l`. -/
theorem group_at (x1 : Vec Ideal S256x512 .i32) (x2 : Vec Ideal S4x256x2 .f32) (g : ℕ) (hg : g < 4) (o : ℕ) (ho : o = 128 * g)
    (inb1 : ∀ a, (![0, o] : Fin 2 → ℕ) a + S256x128.size a ≤ S256x512.size a)
    (inb2 : ∀ a, (![g, 0, 0] : Fin 3 → ℕ) a + S1x256x2.size a ≤ S4x256x2.size a)
    (p : Fin 256) (l : Fin 128) (j : Fin 512) (hj : j.val = 128 * g + l.val) :
    grpTerm (View.ld x2 (Rect.unit (s := S4x256x2) ![g, 0, 0] S1x256x2.size inb2))
      (View.ld x1 (Rect.unit (s := S256x512) ![0, o] S256x128.size inb1)) (ix2 p l) = tileW x1 x2 p j := by
  unfold grpTerm
  refine (dequantGroup_apply _ _ _ _ _ _ _ _ _ p l).trans ?_
  rw [ld_code x1 o inb1 p l j (by omega), ld_pair x2 g hg inb2 p 0, ld_pair x2 g hg inb2 p 1]
  unfold tileW deq
  have hl := l.isLt
  have e : (⟨j.val / 128, by have := j.isLt; omega⟩ : Fin 4) = ⟨g, hg⟩ := Fin.ext (by show j.val / 128 = g; omega)
  rw [e]

local notation "D" => dot_S1024x512_S256x512_S1024x256_1_1_0_0_n_n

theorem lhs_row (i : S1024x256.Idx) (q : (D).contr.Idx) : ((D).lhsIdx i q 0).val = (i 0).val := by
  unfold DotDims.lhsIdx
  rw [dif_neg (show ¬(0 : Fin S1024x512.rank) ∈ dot_S1024x512_S256x512_S1024x256_1_1_0_0_n_n.lhsBatch by decide),
    dif_pos (show (0 : Fin S1024x512.rank) ∈ dot_S1024x512_S256x512_S1024x256_1_1_0_0_n_n.lhsNonContracting by decide)]
  rfl

theorem rhs_row (i : S1024x256.Idx) (q : (D).contr.Idx) : ((D).rhsIdx i q 0).val = (i 1).val := by
  unfold DotDims.rhsIdx
  rw [dif_neg (show ¬(0 : Fin S256x512.rank) ∈ dot_S1024x512_S256x512_S1024x256_1_1_0_0_n_n.rhsBatch by decide),
    dif_pos (show (0 : Fin S256x512.rank) ∈ dot_S1024x512_S256x512_S1024x256_1_1_0_0_n_n.rhsNonContracting by decide)]
  rfl

/-- Entry (r, cc) of the step: the accumulator's entry plus row `r` of the activations against row `cc` of the tile. -/
theorem stepTerm_apply (x0 : Vec Ideal S1024x512 .bf16) (x1 : Vec Ideal S256x512 .i32) (x2 : Vec Ideal S4x256x2 .f32)
    (acc : Vec Ideal S1024x256 .f32) (r : Fin 1024) (cc : Fin 256) :
    stepTerm x0 x1 x2 acc (ix2 r cc) = acc (ix2 r cc) + ∑ j : Fin 512, x0 (ix2 r j) * tileW x1 x2 cc j := by
  unfold stepTerm
  rw [addf_apply]
  simp only [matmul]
  rw [Ideal.matmul_constant_zero_apply, ← Equiv.sum_comp (contrEquiv1 dot_S1024x512_S256x512_S1024x256_1_1_0_0_n_n 512 rfl rfl).symm]
  refine congrArg (acc (ix2 r cc) + ·) (Finset.sum_congr rfl fun j _ => ?_)
  have hk := contrEquiv1_symm_val dot_S1024x512_S256x512_S1024x256_1_1_0_0_n_n 512 rfl rfl j
  have el : dot_S1024x512_S256x512_S1024x256_1_1_0_0_n_n.lhsIdx (ix2 r cc) ((contrEquiv1 dot_S1024x512_S256x512_S1024x256_1_1_0_0_n_n 512 rfl rfl).symm j) = ix2 r j :=
    funext fun a => Fin.ext (by
      match a with
      | ⟨0, _⟩ => exact lhs_row _ _
      | ⟨1, _⟩ => exact (dot_S1024x512_S256x512_S1024x256_1_1_0_0_n_n.lhsIdx_val_of_single rfl _ _).trans hk)
  have er : dot_S1024x512_S256x512_S1024x256_1_1_0_0_n_n.rhsIdx (ix2 r cc) ((contrEquiv1 dot_S1024x512_S256x512_S1024x256_1_1_0_0_n_n 512 rfl rfl).symm j) = ix2 cc j :=
    funext fun a => Fin.ext (by
      match a with
      | ⟨0, _⟩ => exact rhs_row _ _
      | ⟨1, _⟩ => exact (dot_S1024x512_S256x512_S1024x256_1_1_0_0_n_n.rhsIdx_val_of_single rfl _ _).trans hk)
  rw [el, er, truncf_apply]
  refine congrArg (x0 (ix2 r j) * ·) ?_
  have hj := j.isLt
  obtain ⟨g, hg, l, hgl⟩ : ∃ (g : ℕ) (_ : g < 4) (l : Fin 128), j.val = 128 * g + l.val :=
    ⟨j.val / 128, by omega, ⟨j.val % 128, by omega⟩, by show j.val = 128 * (j.val / 128) + j.val % 128; omega⟩
  interval_cases g
  · exact (concat4_axis1_apply _ _ _ _ _ cc j 0 (by decide) _ rfl l hgl).trans (group_at x1 x2 0 (by decide) 0 rfl _ _ cc l j hgl)
  · exact (concat4_axis1_apply _ _ _ _ _ cc j 1 (by decide) _ rfl l hgl).trans (group_at x1 x2 1 (by decide) 128 rfl _ _ cc l j hgl)
  · exact (concat4_axis1_apply _ _ _ _ _ cc j 2 (by decide) _ rfl l hgl).trans (group_at x1 x2 2 (by decide) 256 rfl _ _ cc l j hgl)
  · exact (concat4_axis1_apply _ _ _ _ _ cc j 3 (by decide) _ rfl l hgl).trans (group_at x1 x2 3 (by decide) 384 rfl _ _ cc l j hgl)

/-- The step is `tileAcc`, as arrays. -/
theorem step_eq (x0 : Vec Ideal S1024x512 .bf16) (x1 : Vec Ideal S256x512 .i32) (x2 : Vec Ideal S4x256x2 .f32)
    (acc : Vec Ideal S1024x256 .f32) : step x0 x1 x2 acc = tileAcc acc x0 x1 x2 := by
  funext i
  obtain ⟨r, cc, rfl⟩ : ∃ (r : Fin 1024) (cc : Fin 256), i = ix2 r cc := ⟨i 0, i 1, eq_ix2 i⟩
  rw [step_eq_term]
  exact stepTerm_apply x0 x1 x2 acc r cc

/-- The zero block the first point of a run stores is zero at every entry. -/
theorem zero_block_apply (i : S1024x256.Idx) : k0_pay2 (F := Ideal) i = 0 := by
  unfold k0_pay2
  simp only [shapeCast_self]
  show Ideal.ofBits .f32 0x00000000#32 = 0
  exact Ideal.ofBits_zero_f32

/-- The output block at the last point of a run: the accumulator's entry plus the bias of the entry's channel. -/
theorem out_apply (acc : Vec Ideal S1024x256 .f32) (x3 : Vec Ideal S1x256 .f32) (i : S1024x256.Idx) :
    k0_pay1 acc x3 i = acc i + x3 (ix2 (0 : Fin 1) (i 1)) := by
  obtain ⟨r, cc, rfl⟩ : ∃ (r : Fin 1024) (cc : Fin 256), i = ix2 r cc := ⟨i 0, i 1, eq_ix2 i⟩
  unfold k0_pay1
  simp only [shapeCast_self]
  rw [addf_apply, broadcastTo_1b_ab_apply]

end Cert.KernelIdeal.Tile

end
-- ==== Proof.Accumulate.lean ====
/-
  What the scratch accumulator holds after each grid point.

  Grid points come in runs of eight consecutive points that share a row tile and a channel tile and walk through the
  eight feature tiles. The first point of a run starts the accumulator from zero, every point adds its block product,
  so after the point at offset j of a run the accumulator holds zero plus the block products of the run's points up to
  offset j, as a sum over those points (the fold of a sequence of additions is the sum of the addends).
-/
import proofs.«124561_j83064667504675_1_alg».proof.Proof.Gen.KernelIdeal.Value
import proofs.«124561_j83064667504675_1_alg».proof.Proof.Pieces
import proofs.«124561_j83064667504675_1_alg».proof.Proof.TileStep
import proofs.«124561_j83064667504675_1_alg».proof.Proof.Spec

noncomputable section

open scoped BigOperators
open Idealize.ShloMosaic Idealize.ShloMosaic.TcCoe Idealize.SL.Sem

namespace Cert.KernelIdeal.Acc

open Cert.KernelIdeal Cert.KernelIdeal.Gen Cert.KernelIdeal.Pieces Cert.KernelIdeal.Tile Cert.QLinear
open Idealize.ShloMosaic.ValueIdx

variable (m : (ℓ : Loc nD τ sig) → Buf (Elt Ideal) ℓ)

/-- The block product that grid point `n` adds to the accumulator (zero past the grid, where it is never used). -/
def addend (c : Dev nD) (n : ℕ) : S1024x256.Idx → EReal := fun i =>
  if h : n < cfg0.N then
    tileDot (iblk m c 0 ⟨n, h⟩ : Vec Ideal S1024x512 .bf16) (iblk m c 1 ⟨n, h⟩ : Vec Ideal S256x512 .i32)
      (iblk m c 2 ⟨n, h⟩ : Vec Ideal S4x256x2 .f32) i
  else 0

/-- The first point of a run leaves zero plus its block product, whatever the scratch held. -/
theorem first_eq (c : Dev nD) (n : ℕ) (hb : n < cfg0.N) (h0 : n % 8 = 0) (acc : Vec Ideal S1024x256 .f32) (i : S1024x256.Idx) :
    Value.scAt0_0 m c n hb acc i = 0 + addend m c n i := by
  have h1 : ¬n % 8 = 7 := by omega
  unfold Value.scAt0_0
  rw [dif_pos h0, dif_neg h1]
  refine (congrFun (scratch_first c (grid0.coords ⟨n, hb⟩) (ms0_0 ⟨n, hb⟩) (hs0_0 ⟨n, hb⟩) (ms0_1 ⟨n, hb⟩) (hs0_1 ⟨n, hb⟩)
    (ms0_2 ⟨n, hb⟩) (hs0_2 ⟨n, hb⟩) (ms0_3 ⟨n, hb⟩) (hs0_3 ⟨n, hb⟩) (ms0_4 ⟨n, hb⟩) (hs0_4 ⟨n, hb⟩) scM0_0 (Memref.isWhole_whole _)
    ((hcond0_0 ⟨n, hb⟩).mpr h0) (fun h => h1 ((hcond0_1 ⟨n, hb⟩).mp h))
    (iblk m c 0 ⟨n, hb⟩) (iblk m c 1 ⟨n, hb⟩) (iblk m c 2 ⟨n, hb⟩) (iblk m c 3 ⟨n, hb⟩)) i).trans ?_
  refine (congrFun (step_eq (iblk m c 0 ⟨n, hb⟩) (iblk m c 1 ⟨n, hb⟩) (iblk m c 2 ⟨n, hb⟩) (k0_pay2 (F := Ideal))) i).trans ?_
  unfold tileAcc addend
  rw [zero_block_apply, dif_pos hb]

/-- Every later point of a run adds its block product to what the point before left. -/
theorem later_eq (c : Dev nD) (n : ℕ) (hb : n < cfg0.N) (h0 : ¬n % 8 = 0) (acc : Vec Ideal S1024x256 .f32) (i : S1024x256.Idx) :
    Value.scAt0_0 m c n hb acc i = acc i + addend m c n i := by
  unfold Value.scAt0_0
  rw [dif_neg h0]
  by_cases h1 : n % 8 = 7
  · rw [dif_pos h1]
    refine (congrFun (scratch_last c (grid0.coords ⟨n, hb⟩) (ms0_0 ⟨n, hb⟩) (hs0_0 ⟨n, hb⟩) (ms0_1 ⟨n, hb⟩) (hs0_1 ⟨n, hb⟩)
      (ms0_2 ⟨n, hb⟩) (hs0_2 ⟨n, hb⟩) (ms0_3 ⟨n, hb⟩) (hs0_3 ⟨n, hb⟩) (ms0_4 ⟨n, hb⟩) (hs0_4 ⟨n, hb⟩) scM0_0 (Memref.isWhole_whole _)
      (fun h => h0 ((hcond0_0 ⟨n, hb⟩).mp h)) ((hcond0_1 ⟨n, hb⟩).mpr h1)
      (iblk m c 0 ⟨n, hb⟩) (iblk m c 1 ⟨n, hb⟩) (iblk m c 2 ⟨n, hb⟩) (iblk m c 3 ⟨n, hb⟩) acc) i).trans ?_
    refine (congrFun (step_eq (iblk m c 0 ⟨n, hb⟩) (iblk m c 1 ⟨n, hb⟩) (iblk m c 2 ⟨n, hb⟩) acc) i).trans ?_
    unfold tileAcc addend
    rw [dif_pos hb]
  · rw [dif_neg h1]
    refine (congrFun (scratch_mid c (grid0.coords ⟨n, hb⟩) (ms0_0 ⟨n, hb⟩) (hs0_0 ⟨n, hb⟩) (ms0_1 ⟨n, hb⟩) (hs0_1 ⟨n, hb⟩)
      (ms0_2 ⟨n, hb⟩) (hs0_2 ⟨n, hb⟩) (ms0_3 ⟨n, hb⟩) (hs0_3 ⟨n, hb⟩) (ms0_4 ⟨n, hb⟩) (hs0_4 ⟨n, hb⟩) scM0_0 (Memref.isWhole_whole _)
      (fun h => h0 ((hcond0_0 ⟨n, hb⟩).mp h)) (fun h => h1 ((hcond0_1 ⟨n, hb⟩).mp h))
      (iblk m c 0 ⟨n, hb⟩) (iblk m c 1 ⟨n, hb⟩) (iblk m c 2 ⟨n, hb⟩) (iblk m c 3 ⟨n, hb⟩) acc) i).trans ?_
    refine (congrFun (step_eq (iblk m c 0 ⟨n, hb⟩) (iblk m c 1 ⟨n, hb⟩) (iblk m c 2 ⟨n, hb⟩) acc) i).trans ?_
    unfold tileAcc addend
    rw [dif_pos hb]

/-- After point `t` the scratch holds zero plus the block products of the points of `t`'s run up to `t`. -/
theorem scratch_at (c : Dev nD) (t : Fin cfg0.N) (i : S1024x256.Idx) :
    (outsAt0 m c t.val t.isLt).2 i
      = 0 + ∑ s ∈ Finset.range (t.val % 8 + 1), addend m c (8 * (t.val / 8) + s) i := by
  rw [Value.soutsAt0_0_eq m c t]
  exact Pipeline.accAt_add_apply (fun n h => Value.scAt0_0 m c n h (VS0_0.read (Elt Ideal) VS0_0.junk)) (Value.scAt0_0 m c)
    (fun _ => (0 : EReal)) (addend m c) (8 * (t.val / 8)) 7
    (fun h i => first_eq m c _ h (by omega) _ i)
    (fun n h acc i hlt hle => later_eq m c n h (by omega) acc i)
    (t.val % 8) (by omega) _ i

end Cert.KernelIdeal.Acc

end
-- ==== Proof.Blocks.lean ====
/-
  The blocks the kernel's body is handed at a grid point, in the coordinates of the argument arrays.

  The grid has 8 × 43 × 8 points, the last axis fastest: point t is (row tile t / 344, channel tile (t / 8) % 43,
  feature tile t % 8). At point t the body sees rows 1024·(t / 344) … of the activations and features 512·(t % 8) …;
  channels 256·((t / 8) % 43) … of the codes, of the (scale, zero) pairs and of the bias; and groups 4·(t % 8) … of the
  pairs. A coordinate inside a block is the block's index times the block's extent plus the coordinate in the block.

  Before the region the program changes the activations' float format — the identity on the extended reals — and views
  the bias vector as one row.
-/
import proofs.«124561_j83064667504675_1_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout

noncomputable section

open Idealize.ShloMosaic Idealize.ShloMosaic.TcCoe Idealize.SL.Sem

namespace Cert.KernelIdeal.Blocks

open Cert.KernelIdeal Cert.KernelIdeal.Gen Idealize.ShloMosaic.ValueIdx

variable (m : (ℓ : Loc nD τ sig) → Buf (Elt Ideal) ℓ)

/-- The printed index maps at point `t`, decided once over the grid. -/
theorem idx_facts : ∀ t : Fin cfg0.N,
    win0_0.index t (0 : Fin 2) = t.val / 344 ∧ win0_0.index t (1 : Fin 2) = t.val % 8
    ∧ win0_1.index t (0 : Fin 2) = t.val / 8 % 43 ∧ win0_1.index t (1 : Fin 2) = t.val % 8
    ∧ win0_2.index t (0 : Fin 3) = t.val % 8 ∧ win0_2.index t (1 : Fin 3) = t.val / 8 % 43 ∧ win0_2.index t (2 : Fin 3) = 0
    ∧ win0_3.index t (0 : Fin 2) = 0 ∧ win0_3.index t (1 : Fin 2) = t.val / 8 % 43
    ∧ win0_4.index t (0 : Fin 2) = t.val / 344 ∧ win0_4.index t (1 : Fin 2) = t.val / 8 % 43 :=
  (by decide +kernel : ∀ t : Fin grid0.N, _)

/-- The region finds the activations, after the change of float format, as they were launched. -/
theorem V_act (c : Dev nD) : @Eq (S8192x4096.Idx → EReal) (V m c main_v0) (m ((c : Thread nD τ).loc main_arg0)) := by
  have e : @Eq (S8192x4096.Idx → EReal) (V m c main_v0)
      (truncf (F := Ideal) .bf16 (m ((c : Thread nD τ).loc main_arg0) : FVec Ideal S8192x4096 .f32) bitsLt_bf16_f32) := by
    dsimp only [Gen.V, Gen.hostOps0]; after_results <;> rfl
  exact e

/-- The region finds the bias as one row of 11008 entries. -/
theorem V_bias (c : Dev nD) : @Eq (S1x11008.Idx → EReal) (V m c main_v1)
    (shapeCast S1x11008 (m ((c : Thread nD τ).loc main_arg3) : S11008.Idx → EReal) shapeCasts_S11008_S1x11008) := by
  dsimp only [Gen.V, Gen.hostOps0]; after_results <;> rfl

/-- The activation block at point `t`, entry (r, j): row 1024·(t / 344) + r, feature 512·(t % 8) + j. -/
theorem blk_act (c : Dev nD) (t : Fin cfg0.N) (r : Fin 1024) (j : Fin 512) (R : Fin 8192) (K : Fin 4096)
    (hR : R.val = 1024 * (t.val / 344) + r.val) (hK : K.val = 512 * (t.val % 8) + j.val) :
    (iblk m c 0 t : Vec Ideal S1024x512 .bf16) (ix2 r j) = m ((c : Thread nD τ).loc main_arg0) (ix2 R K) := by
  obtain ⟨e0, e1, -⟩ := idx_facts t
  unfold iblk
  rw [View.read_apply]
  show (V m c main_v0 : S8192x4096.Idx → EReal) _ = _
  rw [congrFun (V_act m c) _]
  refine congrArg _ (funext fun a => Fin.ext ?_)
  match a with
  | ⟨0, _⟩ => show win0_0.index t (0 : Fin 2) * 1024 + 1 * r.val = R.val; omega
  | ⟨1, _⟩ => show win0_0.index t (1 : Fin 2) * 512 + 1 * j.val = K.val; omega

/-- The code block at point `t`, entry (cc, j): channel 256·((t / 8) % 43) + cc, feature 512·(t % 8) + j. -/
theorem blk_code (c : Dev nD) (t : Fin cfg0.N) (cc : Fin 256) (j : Fin 512) (Nn : Fin 11008) (K : Fin 4096)
    (hN : Nn.val = 256 * (t.val / 8 % 43) + cc.val) (hK : K.val = 512 * (t.val % 8) + j.val) :
    (iblk m c 1 t : Vec Ideal S256x512 .i32) (ix2 cc j) = m ((c : Thread nD τ).loc main_arg1) (ix2 Nn K) := by
  obtain ⟨-, -, e0, e1, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 2) * 256 + 1 * cc.val = Nn.val; omega
  | ⟨1, _⟩ => show win0_1.index t (1 : Fin 2) * 512 + 1 * j.val = K.val; omega

/-- The block of pairs at point `t`, entry (g, cc, e): group 4·(t % 8) + g, channel 256·((t / 8) % 43) + cc. -/
theorem blk_pair (c : Dev nD) (t : Fin cfg0.N) (g : Fin 4) (cc : Fin 256) (e : Fin 2) (G : Fin 32) (Nn : Fin 11008)
    (hG : G.val = 4 * (t.val % 8) + g.val) (hN : Nn.val = 256 * (t.val / 8 % 43) + cc.val) :
    (iblk m c 2 t : Vec Ideal S4x256x2 .f32) (ix3 g cc e) = m ((c : Thread nD τ).loc main_arg2) (ix3 G Nn e) := by
  obtain ⟨-, -, -, -, e0, e1, e2, -⟩ := idx_facts t
  unfold iblk
  rw [View.read_apply]
  show V m c main_arg2 _ = _
  rw [V_main_arg2]
  refine congrArg _ (funext fun a => Fin.ext ?_)
  match a with
  | ⟨0, _⟩ => show win0_2.index t (0 : Fin 3) * 4 + 1 * g.val = G.val; omega
  | ⟨1, _⟩ => show win0_2.index t (1 : Fin 3) * 256 + 1 * cc.val = Nn.val; omega
  | ⟨2, _⟩ => show win0_2.index t (2 : Fin 3) * 2 + 1 * e.val = e.val; omega

/-- The bias block at point `t`, entry (0, cc): the bias of channel 256·((t / 8) % 43) + cc. -/
theorem blk_bias (c : Dev nD) (t : Fin cfg0.N) (cc : Fin 256) (Nn : Fin 11008)
    (hN : Nn.val = 256 * (t.val / 8 % 43) + cc.val) :
    (iblk m c 3 t : Vec Ideal S1x256 .f32) (ix2 (0 : Fin 1) cc) = m ((c : Thread nD τ).loc main_arg3) (ix1 Nn) := by
  obtain ⟨-, -, -, -, -, -, -, e0, e1, -⟩ := idx_facts t
  unfold iblk
  rw [View.read_apply]
  show (V m c main_v1 : S1x11008.Idx → EReal) _ = _
  rw [congrFun (V_bias m c) _]
  refine (shapeCast_apply _ shapeCasts_S11008_S1x11008 _ (ix1 Nn) ?_)
  rw [Shape.rowMajor_val_one, Shape.rowMajor_val_two]
  show Nn.val = (win0_3.index t (0 : Fin 2) * 1 + 1 * 0) * 11008 + (win0_3.index t (1 : Fin 2) * 256 + 1 * cc.val)
  omega

end Cert.KernelIdeal.Blocks

end
-- ==== Proof.Final.lean ====
/-
  The kernel's result array is `Cert.QLinear.result` of the argument arrays.

  Only the last point of a run (t % 8 = 7) writes its output block back. By then the scratch holds the sum of the eight
  block products of the run; each block product is a sum over the 512 features of its feature tile, so together they
  are the sum over all 4096 features (`sum_tiles`), with the activations' row and the weights' channel fixed by the
  run's row tile and channel tile. The block written is that sum plus the channel's bias: `result` read through the
  block. The 8 × 43 output blocks, one per run, tile the [8192, 11008] array, so the array ends holding `result`.
-/
import proofs.«124561_j83064667504675_1_alg».proof.Proof.Gen.KernelIdeal.Value
import proofs.«124561_j83064667504675_1_alg».proof.Proof.Accumulate
import proofs.«124561_j83064667504675_1_alg».proof.Proof.Blocks
import proofs.«124561_j83064667504675_1_alg».proof.Proof.Spec

noncomputable section

open scoped BigOperators
open Idealize.ShloMosaic Idealize.ShloMosaic.TcCoe Idealize.SL.Sem
open Idealize.ShloMosaic.Pipeline (Dat)

namespace Cert.KernelIdeal.Final

open Cert.KernelIdeal Cert.KernelIdeal.Gen Cert.KernelIdeal.Pieces Cert.KernelIdeal.Tile Cert.KernelIdeal.Blocks
open Cert.KernelIdeal.Acc Cert.QLinear Idealize.ShloMosaic.ValueIdx

variable (m : (ℓ : Loc nD τ sig) → Buf (Elt Ideal) ℓ) (ρ : Dev nD → PrngReg)

/-- The argument arrays on core `c`, at their literal types. -/
abbrev argX (c : Dev nD) : S8192x4096.Idx → EReal := m ((c : Thread nD τ).loc main_arg0)
abbrev argQ (c : Dev nD) : S11008x4096.Idx → BitVec 32 := m ((c : Thread nD τ).loc main_arg1)
abbrev argSZ (c : Dev nD) : S32x11008x2.Idx → EReal := m ((c : Thread nD τ).loc main_arg2)
abbrev argB (c : Dev nD) : S11008.Idx → EReal := m ((c : Thread nD τ).loc main_arg3)

/-- The weight tile of point `t` in the coordinates of the whole arrays. -/
theorem tile_weight (c : Dev nD) (t : Fin cfg0.N) (cc : Fin 256) (j : Fin 512) (Nn : Fin 11008) (K : Fin 4096)
    (hN : Nn.val = 256 * (t.val / 8 % 43) + cc.val) (hK : K.val = 512 * (t.val % 8) + j.val) :
    tileW (iblk m c 1 t : Vec Ideal S256x512 .i32) (iblk m c 2 t : Vec Ideal S4x256x2 .f32) cc j
      = weight (argQ m c) (argSZ m c) Nn K := by
  have hj := j.isLt
  unfold tileW weight
  rw [blk_code m c t cc j Nn K hN hK,
    blk_pair m c t ⟨j.val / 128, by omega⟩ cc 0 (grp K) Nn (by show K.val / 128 = 4 * (t.val % 8) + j.val / 128; omega) hN,
    blk_pair m c t ⟨j.val / 128, by omega⟩ cc 1 (grp K) Nn (by show K.val / 128 = 4 * (t.val % 8) + j.val / 128; omega) hN]

/-- The eight block products of the run that ends at `t`, summed, are the whole contraction over the 4096 features. -/
theorem run_sum (c : Dev nD) (t : Fin cfg0.N) (h7 : t.val % 8 = 7) (i : S1024x256.Idx) (R : Fin 8192) (Nn : Fin 11008)
    (hR : R.val = 1024 * (t.val / 344) + (i 0).val) (hN : Nn.val = 256 * (t.val / 8 % 43) + (i 1).val) :
    ∑ s ∈ Finset.range 8, addend m c (8 * (t.val / 8) + s) i
      = ∑ k : Fin 4096, argX m c (ix2 R k) * weight (argQ m c) (argSZ m c) Nn k := by
  have hN0 : cfg0.N = 2752 := N_0
  have ht := t.isLt
  let Fk : ℕ → EReal := fun k => if h : k < 4096 then
    argX m c (ix2 R ⟨k, h⟩) * weight (argQ m c) (argSZ m c) Nn ⟨k, h⟩ else 0
  have hF : ∀ k : Fin 4096, Fk k.val = argX m c (ix2 R k) * weight (argQ m c) (argSZ m c) Nn k := fun k => dif_pos k.isLt
  rw [← Finset.sum_congr rfl (fun k _ => hF k), ← sum_tiles Fk]
  refine Finset.sum_congr rfl fun s hs => ?_
  have hs8 : s < 8 := Finset.mem_range.mp hs
  have hn : 8 * (t.val / 8) + s < cfg0.N := by omega
  unfold addend
  rw [dif_pos hn]
  unfold tileDot
  refine Finset.sum_congr rfl fun j _ => ?_
  have hj := j.isLt
  have hk : 512 * s + j.val < 4096 := by omega
  show _ = dite (512 * s + j.val < 4096) _ _
  rw [dif_pos hk]
  rw [blk_act m c ⟨8 * (t.val / 8) + s, hn⟩ (i 0) j R ⟨512 * s + j.val, hk⟩
      (by show R.val = 1024 * ((8 * (t.val / 8) + s) / 344) + (i 0).val; omega)
      (by show 512 * s + j.val = 512 * ((8 * (t.val / 8) + s) % 8) + j.val; omega),
    tile_weight m c ⟨8 * (t.val / 8) + s, hn⟩ (i 1) j Nn ⟨512 * s + j.val, hk⟩
      (by show Nn.val = 256 * ((8 * (t.val / 8) + s) / 8 % 43) + (i 1).val; omega)
      (by show 512 * s + j.val = 512 * ((8 * (t.val / 8) + s) % 8) + j.val; omega)]

/-- The result array's contents: `result` of the argument arrays. -/
abbrev resultArr (c : Dev nD) : S8192x11008.Idx → EReal :=
  result (argX m c) (argQ m c) (argSZ m c) (argB m c)

/-- What a writing point writes back is its block of `result`. -/
theorem flushed_eq (c : Dev nD) (t : Fin cfg0.N) (hf : (cfg0.win 4).flush t = true) :
    (dats m 0 c).flushed 4 t = ((cfg0.win 4).blk t).view.read (Elt Ideal) (resultArr m c) := by
  have h7 : t.val % 8 = 7 := (flush0_4 t).mp hf
  have h0 : ¬t.val % 8 = 0 := by omega
  have ht := t.isLt
  have hN0 : cfg0.N = 2752 := N_0
  obtain ⟨-, -, -, -, -, -, -, -, -, e0, e1⟩ := idx_facts t
  have hprev : t.val - 1 < cfg0.N := Nat.lt_of_le_of_lt (Nat.sub_le _ _) t.isLt
  -- what the point before left in the scratch: the block products of the run's first seven points
  have hp : ∀ y : S1024x256.Idx, (outsAt0 m c (t.val - 1) hprev).2 y
      = ∑ s ∈ Finset.range 7, addend m c (8 * (t.val / 8) + s) y := fun y => by
    have h := scratch_at m c ⟨t.val - 1, hprev⟩ y
    have e1 : (t.val - 1) % 8 + 1 = 7 := by omega
    have e2 : (t.val - 1) / 8 = t.val / 8 := by omega
    rw [zero_add] at h
    show (outsAt0 m c (t.val - 1) hprev).2 y = _
    refine h.trans ?_
    show ∑ s ∈ Finset.range ((t.val - 1) % 8 + 1), addend m c (8 * ((t.val - 1) / 8) + s) y = _
    rw [e1, e2]
  -- this point's own block product is the run's eighth
  have hadd : ∀ y : S1024x256.Idx, tileDot (iblk m c 0 t : Vec Ideal S1024x512 .bf16) (iblk m c 1 t : Vec Ideal S256x512 .i32)
      (iblk m c 2 t : Vec Ideal S4x256x2 .f32) y = addend m c (8 * (t.val / 8) + 7) y := fun y => by
    have hlt : 8 * (t.val / 8) + 7 < cfg0.N := by omega
    have et : (⟨8 * (t.val / 8) + 7, hlt⟩ : Fin cfg0.N) = t := Fin.ext (by show 8 * (t.val / 8) + 7 = t.val; omega)
    unfold addend
    rw [dif_pos hlt, et]
  have hout := out_last c (grid0.coords t) (ms0_0 t) (hs0_0 t) (ms0_1 t) (hs0_1 t) (ms0_2 t) (hs0_2 t) (ms0_3 t) (hs0_3 t)
      (ms0_4 t) (hs0_4 t) scM0_0 (Memref.isWhole_whole _) (fun h => h0 ((hcond0_0 t).mp h)) ((hcond0_1 t).mpr h7)
      (iblk m c 0 t) (iblk m c 1 t) (iblk m c 2 t) (iblk m c 3 t) (outsAt0 m c (t.val - 1) hprev).2
  rw [Value.flushed4_C m c t h0 h7, hout]
  generalize (outsAt0 m c (t.val - 1) hprev).2 = pv at hp
  funext y
  show k0_pay1 (step (iblk m c 0 t) (iblk m c 1 t) (iblk m c 2 t) pv) (iblk m c 3 t) y
    = resultArr m c (((cfg0.win 4).blk t).view.emb y)
  refine (out_apply _ (iblk m c 3 t) y).trans ?_
  rw [congrFun (step_eq (iblk m c 0 t) (iblk m c 1 t) (iblk m c 2 t) pv) y]
  unfold tileAcc
  rw [hp y, hadd y, ← Finset.sum_range_succ (fun s => addend m c (8 * (t.val / 8) + s) y) 7]
  have hy0 : (y 0).val < 1024 := (y 0).isLt
  have hy1 : (y 1).val < 256 := (y 1).isLt
  have hR : ((((cfg0.win 4).blk t).view.emb y) 0).val = 1024 * (t.val / 344) + (y 0).val := by
    show win0_4.index t (0 : Fin 2) * 1024 + 1 * (y 0).val = _; omega
  have hN : ((((cfg0.win 4).blk t).view.emb y) 1).val = 256 * (t.val / 8 % 43) + (y 1).val := by
    show win0_4.index t (1 : Fin 2) * 256 + 1 * (y 1).val = _; omega
  rw [run_sum m c t h7 y _ _ hR hN, blk_bias m c t (y 1) _ hN]
  rfl

/-- Every entry of the result array lies in the block some writing point writes. -/
theorem cover (i : S8192x11008.Idx) : ∃ t : Fin cfg0.N, (cfg0.win 4).flush t = true ∧ i ∈ ((cfg0.win 4).blk t).view.set := by
  have hi0 : (i 0).val < 8192 := (i 0).isLt
  have hi1 : (i 1).val < 11008 := (i 1).isLt
  have hN0 : cfg0.N = 2752 := N_0
  let t : Fin cfg0.N := ⟨((i 0).val / 1024 * 43 + (i 1).val / 256) * 8 + 7, by omega⟩
  have htv : t.val = ((i 0).val / 1024 * 43 + (i 1).val / 256) * 8 + 7 := rfl
  obtain ⟨-, -, -, -, -, -, -, -, -, e0, e1⟩ := idx_facts t
  refine ⟨t, (flush0_4 t).mpr (by omega), ?_⟩
  show i ∈ ((View.whole main_v2).slice (win0_4.rect t)).set
  rw [View.set_slice_whole, Rect.mem_set_unit]
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 256 ≤ (i 1).val ∧ (i 1).val < win0_4.index t (1 : Fin 2) * 256 + 256
    omega

/-- The result array after the run. -/
theorem final (c : Dev nD) : (dats m 0 c).arrAt 4 cfg0.N = resultArr m c :=
  (dats m 0 c).arrAt_eq_of_cover 4 (resultArr m c) (flushed_eq m c) cover

/-- The kernel's run: the result array at `result` of the arguments, the arguments unchanged. -/
theorem run : θ_run defs (onTc (τ := τ) (main (F := Ideal))) ⟨m, fun _ => 0, ρ⟩ fun r => ∀ c : Dev nD,
      r.2.mem ((c : Thread nD τ).loc main_v2) = resultArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Final

end
-- ==== Proof.lean ====
/-
  A linear layer whose weights are stored quantized in groups — Y = X · Wᵀ + B with
  W(n, k) = (Q(n, k) − 8) · scale(k / 128, n) + zero(k / 128, n) — computed by a tiled kernel and by a plain reference;
  both are shown to end with the same array over the extended reals.

  The reference dequantizes the whole weight matrix, transposes it and contracts it with the activations in one
  product over the 4096 input features, then adds the bias (Proof/RefRead.lean: every reshape, transpose and broadcast
  is a re-indexing, so entry (r, n) of its result is Σ_k X(r, k) · W(n, k) + B(n): `Cert.QLinear.result`).

  The kernel walks a grid of 8 row tiles × 43 channel tiles × 8 feature tiles. At each point it dequantizes a
  [256, 512] tile of weights, four groups of 128 features at a time, multiplies the [1024, 512] tile of activations by
  it and adds the product into an accumulator that it zeroed at the first feature tile; at the last feature tile it
  writes accumulator + bias to the [1024, 256] output tile (Proof/Pieces.lean, Proof/TileStep.lean). After the eight
  feature tiles the accumulator holds 0 + Σ_{s < 8} Σ_{j < 512} X(r, 512·s + j) · W(n, 512·s + j)
  (Proof/Accumulate.lean), which is Σ_k X(r, k) · W(n, k) because addition of extended reals is commutative and
  associative (Proof/Spec.lean `sum_tiles`); the output tiles cover the result array (Proof/Final.lean).

  No step divides, cancels or distributes, so the finiteness of the inputs is never used: the products X(r, k) · W(n, k)
  are the same extended reals on both sides and only their order of summation differs. A change of float format is
  the identity on the extended reals. Nothing of the program was rewritten for the idealized reading, so the
  idealization claim is trivial; the three frame claims are the generated frame runs.
-/
import proofs.«124561_j83064667504675_1_alg».proof.Defs
import proofs.«124561_j83064667504675_1_alg».proof.Proof.Gen.Kernel
import proofs.«124561_j83064667504675_1_alg».proof.Proof.Gen.Kernel.Frame
import proofs.«124561_j83064667504675_1_alg».proof.Proof.Gen.KernelIdeal
import proofs.«124561_j83064667504675_1_alg».proof.Proof.Gen.KernelIdeal.Frame
import proofs.«124561_j83064667504675_1_alg».proof.Proof.Gen.KernelIdeal.Value
import proofs.«124561_j83064667504675_1_alg».proof.Proof.Gen.ReferenceIdeal
import proofs.«124561_j83064667504675_1_alg».proof.Proof.Gen.ReferenceIdeal.Run
import proofs.«124561_j83064667504675_1_alg».proof.Proof.Gen.ReferenceIdeal.Read
import proofs.«124561_j83064667504675_1_alg».proof.Proof.Gen.Pre_finite_inputs
import proofs.«124561_j83064667504675_1_alg».proof.Proof.RefRead
import proofs.«124561_j83064667504675_1_alg».proof.Proof.Final
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: nothing was rewritten. -/
theorem preserves : Cert.preserves_Kernel_KernelIdeal := trivial

/-- Both idealized programs end with `result` of their arguments, and the arguments agree. -/
theorem algebraic : Cert.algebraic_KernelIdeal_ReferenceIdeal := by
  intro m ρ m' ρ' _ hagree
  refine ⟨fun c => Cert.KernelIdeal.Final.resultArr m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v21_eq, Cert.ReferenceIdeal.RefValue.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
